-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 186
  | .vmem => 15
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000, .i32⟩
  | 3 => ⟨S850000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S850000, .f32⟩
  | 38 => ⟨S50000x64, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x64, .f32⟩
  | 48 => ⟨S850000x1, .f32⟩
  | 49 => ⟨S850000x64, .f32⟩
  | 50 => ⟨S850000x64, .f32⟩
  | 51 => ⟨S_, .f32⟩
  | 52 => ⟨S50000x64, .f32⟩
  | 53 => ⟨S850000x1, .i32⟩
  | 54 => ⟨S50000x64, .f32⟩
  | 55 => ⟨S1x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_call4_v0 : Ref sig .tc := ⟨.hbm, 144, rfl⟩
abbrev main_call4_v1 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_c_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000, .i32⟩
  | 3 => ⟨S850000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S850000, .f32⟩
  | 38 => ⟨S50000x64, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x64, .f32⟩
  | 48 => ⟨S850000x1, .f32⟩
  | 49 => ⟨S850000x64, .f32⟩
  | 50 => ⟨S850000x64, .f32⟩
  | 51 => ⟨S_, .f32⟩
  | 52 => ⟨S50000x64, .f32⟩
  | 53 => ⟨S850000x1, .i32⟩
  | 54 => ⟨S50000x64, .f32⟩
  | 55 => ⟨S1x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_call4_v0 : Ref sig .tc := ⟨.hbm, 144, rfl⟩
abbrev main_call4_v1 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_c_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Fold.lean ====
/-
  The idealized kernel's host side as ONE fold of buffer contents.

  The kernel's @main is three stretches of host operations, each followed by a kernel region that multiplies a
  `50000 × 128` activation matrix by a weight matrix, and a last stretch after the third region. Here each region is
  replaced by the host operation that writes the whole product `A · W` into the region's result buffer and leaves
  every other buffer alone; `Kfold V` is the contents of all buffers after the stretches and these three operations, in
  @main's order, from contents `V`. (That a region does act on the buffers in this way is proved where the regions are
  read; this module only names the fold.)
-/
import proofs.«173464_j18107582119956_1_alg».proof.Proof.Gen.KernelIdeal.Launch
import proofs.«173464_j18107582119956_1_alg».proof.Proof.Gen.ReferenceIdeal
import Idealize.ShloMosaic.Lib.StableHlo.Run

noncomputable section

namespace Cert.KernelIdeal.Fold

open Cert.KernelIdeal Cert.KernelIdeal.Gen Idealize.ShloMosaic Idealize.ShloMosaic.TcCoe Idealize.ShloMosaic.StableHlo

variable {F : FTy → Type} [FloatOps F]

/-- The first layer's product `x · W1`, written into the first region's result buffer. -/
abbrev prodOp0 : HloOp τ sig (Elt F) :=
  binary main_arg0 main_arg2 main_v30 ((fun l r => Host.dotGeneral Cert.ReferenceIdeal.dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))

/-- The second layer's product `h1 · W2`, written into the second region's result buffer. -/
abbrev prodOp1 : HloOp τ sig (Elt F) :=
  binary main_v47 main_arg4 main_v74 ((fun l r => Host.dotGeneral Cert.ReferenceIdeal.dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))

/-- The third layer's product `h2 · W3`, written into the third region's result buffer. -/
abbrev prodOp2 : HloOp τ sig (Elt F) :=
  binary main_v91 main_arg6 main_v118 ((fun l r => Host.dotGeneral Cert.ReferenceIdeal.dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))

/-- All buffers after @main's host stretches and the three products, in @main's order, from contents `V`. -/
def Kfold (V : Valuation τ sig (Elt F)) : Valuation τ sig (Elt F) :=
  after hostOps3 (prodOp2.result (after hostOps2_4 (after hostOps2_3 (after hostOps2_2 (after hostOps2_1 (after hostOps2
    (prodOp1.result (after hostOps1_4 (after hostOps1_3 (after hostOps1_2 (after hostOps1_1 (after hostOps1
      (prodOp0.result (after hostOps0_2 (after hostOps0_1 (after hostOps0 V))))))))))))))))

end Cert.KernelIdeal.Fold

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibNarrowedRows.lean ====
/-
  A block of rows of a matrix product whose operands were first narrowed to a shorter float format.

  To produce `TM` rows of `A · B` a kernel takes the `TM × K` block `X0` of rows of `A` and the `K × N` matrix
  `X1`, narrows both to a shorter float format, and multiplies them into a block of zeros. On the extended reals a
  change of float format is the identity and `0 + s = s`, so the block's entry `(p, q)` is
  `∑ k, X0 (p, k) * X1 (k, q)`; when row `p` of `X0` is row `r` of `A` and column `q` of `X1` is column `q` of `B`
  this is the sum that the whole product `A · B` has at `(r, q)`. Nothing is reordered, distributed or cancelled:
  the two sides are the same finite sum, so no entry needs to be finite.
-/
import proofs.«173464_j18107582119956_1_alg».proof.Proof.LibPlain

noncomputable section

namespace Cert.LibNarrowedRows

open Idealize.ShloMosaic Idealize.ShloMosaic.ValueIdx

/-- Entry `(p, q)` of the block computed from the narrowed row block `X0` and the narrowed matrix `X1` is entry
    `(r, q)` of the whole product of `A` and `B`, as soon as row `p` of `X0` is row `r` of `A` and column `q` of
    `X1` is column `q` of `B`. -/
theorem narrowed_rows_entry {M K N TM : ℕ} {φ ψ : FTy}
    (A : FVec Ideal ⟨2, ![M, K]⟩ φ) (B : FVec Ideal ⟨2, ![K, N]⟩ φ)
    (X0 : FVec Ideal ⟨2, ![TM, K]⟩ φ) (X1 : FVec Ideal ⟨2, ![K, N]⟩ φ)
    (d : DotDims ⟨2, ![TM, K]⟩ ⟨2, ![K, N]⟩ ⟨2, ![TM, N]⟩) (hd : d = DotDims.plain TM K N)
    (D : DotDims ⟨2, ![M, K]⟩ ⟨2, ![K, N]⟩ ⟨2, ![M, N]⟩) (hD : D = DotDims.plain M K N)
    (hb : ψ.bits < φ.bits) (p : Fin TM) (q : Fin N) (r : Fin M)
    (h0 : ∀ k : Fin K, X0 (ix2 p k) = A (ix2 r k)) (h1 : ∀ k : Fin K, X1 (ix2 k q) = B (ix2 k q)) :
    matmul d none (truncf ψ X0 hb) (truncf ψ X1 hb) (constant (F := Ideal) ⟨2, ![TM, N]⟩ .f32 0x00000000#32) (ix2 p q)
      = Host.dotGeneral D none A B (ix2 r q) :=
  (Cert.LibPlain.matmul_zero_apply d hd none (truncf ψ X0 hb) (truncf ψ X1 hb) p q).trans
    ((Finset.sum_congr rfl fun k _ => by rw [truncf_apply, truncf_apply, h0 k, h1 k]).trans
      (Cert.LibPlain.dotGeneral_apply D hD none A B r q).symm)

end Cert.LibNarrowedRows

end
-- ==== Proof.Region0.lean ====
/-
  Region 0: a `50000 × 128` matrix times a `128 × 128` matrix, computed `10000` rows at a time.

  The region's grid has five points. At point `t` the body loads rows `10000 t … 10000 t + 9999` of the left matrix
  `A` and the whole right matrix `B`, narrows both to bfloat16, multiplies them into a block of zeros and stores the
  block; the pipeline writes that block back as rows `10000 t … 10000 t + 9999` of the result array. On the extended
  reals narrowing is the identity, so entry `(p, q)` of the block is `∑ k, A (10000 t + p, k) * B (k, q)`: the entry
  `(10000 t + p, q)` of the product `A · B`. Every row of the result lies in exactly one block (row `r` in block
  `r / 10000`), so when the region ends its result array holds the whole product, and its two input arrays are as it
  found them.
-/
import proofs.«173464_j18107582119956_1_alg».proof.Proof.Gen.KernelIdeal.Frame
import proofs.«173464_j18107582119956_1_alg».proof.Proof.Gen.ReferenceIdeal
import proofs.«173464_j18107582119956_1_alg».proof.Proof.LibNarrowedRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The whole product `A · B`. -/
abbrev prod (A : FVec Ideal S50000x128 .f32) (B : FVec Ideal S128x128 .f32) : FVec Ideal S50000x128 .f32 :=
  Host.dotGeneral Cert.ReferenceIdeal.dot_S50000x128_S128x128_S50000x128_1_0_0_1_n_n none A B

/-- The whole product of the two arrays the region reads. -/
abbrev whole (c : Dev nD) : FVec Ideal S50000x128 .f32 := prod (V c main_arg0) (V c main_arg2)

/-- The stored block at `(p, q)` is the product's entry `(r, q)`, when row `p` of the loaded row block is row `r` of
    `A` and column `q` of the loaded matrix is column `q` of `B`. -/
theorem pay_entry (A : FVec Ideal S50000x128 .f32) (B : FVec Ideal S128x128 .f32)
    (x0 : FVec Ideal S10000x128 .f32) (x1 : FVec Ideal S128x128 .f32) (p : Fin 10000) (q : Fin 128) (r : Fin 50000)
    (h0 : ∀ k : Fin 128, x0 (ix2 p k) = A (ix2 r k)) (h1 : ∀ k : Fin 128, x1 (ix2 k q) = B (ix2 k q)) :
    k0_pay1 x0 x1 (ix2 p q) = prod A B (ix2 r q) := by
  unfold k0_pay1
  exact Cert.LibNarrowedRows.narrowed_rows_entry (M := 50000) (K := 128) (N := 128) (TM := 10000) A B x0 x1
    dot_S10000x128_S128x128_S10000x128_1_0_0_1_n_n rfl Cert.ReferenceIdeal.dot_S50000x128_S128x128_S50000x128_1_0_0_1_n_n rfl bitsLt_bf16_f32 p q r h0 h1

/-- The same at any entry `y` of the block and any index `I` of the product in the same column: the row block need
    only agree with `A` along row `y 0` against row `I 0`, the loaded matrix with `B` everywhere. -/
theorem pay_at (A : FVec Ideal S50000x128 .f32) (B : FVec Ideal S128x128 .f32)
    (x0 : FVec Ideal S10000x128 .f32) (x1 : FVec Ideal S128x128 .f32) (y : S10000x128.Idx) (I : S50000x128.Idx)
    (hI : (I 1).val = (y 1).val)
    (h0 : ∀ (j : S10000x128.Idx) (i : S50000x128.Idx), (j 0).val = (y 0).val → (i 0).val = (I 0).val →
      (i 1).val = (j 1).val → x0 j = A i)
    (h1 : ∀ j : S128x128.Idx, x1 j = B j) :
    k0_pay1 x0 x1 y = prod A B I := by
  obtain ⟨p, q, rfl⟩ : ∃ (p : Fin 10000) (q : Fin 128), y = ix2 p q := ⟨y 0, y 1, eq_ix2 y⟩
  obtain ⟨r, q', rfl⟩ : ∃ (r : Fin 50000) (q' : Fin 128), I = ix2 r q' := ⟨I 0, I 1, eq_ix2 I⟩
  obtain rfl : q' = q := Fin.ext hI
  exact pay_entry A B x0 x1 p q' r (fun k => h0 (ix2 p k) (ix2 r k) rfl rfl rfl) (fun k => h1 (ix2 k q'))

/-- The printed index maps over the grid: the row blocks of the left operand and of the result move with the point,
    the right operand's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext y
  show k0_pay1 (iblk0 V c 0 t) (iblk0 V c 1 t) y = whole V c (((cfg0.win 2).blk t).view.emb y)
  refine pay_at (V c main_arg0) (V c main_arg2) (iblk0 V c 0 t) (iblk0 V c 1 t) y (((cfg0.win 2).blk t).view.emb y) ?_ ?_ ?_
  · show win0_2.index t (1 : Fin 2) * 128 + 1 * (y 1).val = (y 1).val
    omega
  · intro j i hj hi0 hi1
    have hi0' : (i 0).val = win0_2.index t (0 : Fin 2) * 10000 + 1 * (y 0).val := hi0
    unfold iblk0
    rw [View.read_apply]
    show V c main_arg0 (((cfg0.win 0).blk t).view.emb j) = V c main_arg0 i
    refine congrArg (V c main_arg0) (funext fun a => Fin.ext ?_)
    match a with
    | ⟨0, _⟩ => show win0_0.index t (0 : Fin 2) * 10000 + 1 * (j 0).val = (i 0).val; omega
    | ⟨1, _⟩ => show win0_0.index t (1 : Fin 2) * 128 + 1 * (j 1).val = (i 1).val; omega
  · intro j
    unfold iblk0
    rw [View.read_apply]
    show V c main_arg2 (((cfg0.win 1).blk t).view.emb j) = V c main_arg2 j
    refine congrArg (V c main_arg2) (funext fun a => Fin.ext ?_)
    match a with
    | ⟨0, _⟩ => show win0_1.index t (0 : Fin 2) * 128 + 1 * (j 0).val = (j 0).val; omega
    | ⟨1, _⟩ => show win0_1.index t (1 : Fin 2) * 128 + 1 * (j 1).val = (j 1).val; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every index of the result array is in some point's block: row `r` in block `r / 10000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨e0, e1, e2, e3, e4, e5⟩ := idx_facts ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-- When the region ends its result array holds the whole product. -/
theorem result_arr (c : Dev nD) : (dat0 V c).arrAt 2 cfg0.N = whole V c :=
  (dat0 V c).arrAt_eq_of_cover 2 (whole V c) (fun t _ => flushed_eq V c t) cover

/-- The left operand's array ends as the region found it. -/
theorem left_arr (c : Dev nD) : (dat0 V c).arrAt 0 cfg0.N = V c main_arg0 :=
  ((dat0 V c).arrAt_in 0 rfl _).trans (A_eq0 V c 0)

/-- The right operand's array ends as the region found it. -/
theorem right_arr (c : Dev nD) : (dat0 V c).arrAt 1 cfg0.N = V c main_arg2 :=
  ((dat0 V c).arrAt_in 1 rfl _).trans (A_eq0 V c 1)

end Cert.KernelIdeal.Region0

end
-- ==== Proof.Region1.lean ====
/-
  Region 1: a `50000 × 128` matrix times a `128 × 128` matrix, computed `10000` rows at a time.

  The region's grid has five points. At point `t` the body loads rows `10000 t … 10000 t + 9999` of the left matrix
  `A` and the whole right matrix `B`, narrows both to bfloat16, multiplies them into a block of zeros and stores the
  block; the pipeline writes that block back as rows `10000 t … 10000 t + 9999` of the result array. On the extended
  reals narrowing is the identity, so entry `(p, q)` of the block is `∑ k, A (10000 t + p, k) * B (k, q)`: the entry
  `(10000 t + p, q)` of the product `A · B`. Every row of the result lies in exactly one block (row `r` in block
  `r / 10000`), so when the region ends its result array holds the whole product, and its two input arrays are as it
  found them.
-/
import proofs.«173464_j18107582119956_1_alg».proof.Proof.Gen.KernelIdeal.Frame
import proofs.«173464_j18107582119956_1_alg».proof.Proof.Gen.ReferenceIdeal
import proofs.«173464_j18107582119956_1_alg».proof.Proof.LibNarrowedRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The whole product `A · B`. -/
abbrev prod (A : FVec Ideal S50000x128 .f32) (B : FVec Ideal S128x128 .f32) : FVec Ideal S50000x128 .f32 :=
  Host.dotGeneral Cert.ReferenceIdeal.dot_S50000x128_S128x128_S50000x128_1_0_0_1_n_n none A B

/-- The whole product of the two arrays the region reads. -/
abbrev whole (c : Dev nD) : FVec Ideal S50000x128 .f32 := prod (V c main_v47) (V c main_arg4)

/-- The stored block at `(p, q)` is the product's entry `(r, q)`, when row `p` of the loaded row block is row `r` of
    `A` and column `q` of the loaded matrix is column `q` of `B`. -/
theorem pay_entry (A : FVec Ideal S50000x128 .f32) (B : FVec Ideal S128x128 .f32)
    (x0 : FVec Ideal S10000x128 .f32) (x1 : FVec Ideal S128x128 .f32) (p : Fin 10000) (q : Fin 128) (r : Fin 50000)
    (h0 : ∀ k : Fin 128, x0 (ix2 p k) = A (ix2 r k)) (h1 : ∀ k : Fin 128, x1 (ix2 k q) = B (ix2 k q)) :
    k1_pay1 x0 x1 (ix2 p q) = prod A B (ix2 r q) := by
  unfold k1_pay1
  rw [shapeCast_self]
  exact Cert.LibNarrowedRows.narrowed_rows_entry (M := 50000) (K := 128) (N := 128) (TM := 10000) A B x0 x1
    dot_S10000x128_S128x128_S10000x128_1_0_0_1_n_n rfl Cert.ReferenceIdeal.dot_S50000x128_S128x128_S50000x128_1_0_0_1_n_n rfl bitsLt_bf16_f32 p q r h0 h1

/-- The same at any entry `y` of the block and any index `I` of the product in the same column: the row block need
    only agree with `A` along row `y 0` against row `I 0`, the loaded matrix with `B` everywhere. -/
theorem pay_at (A : FVec Ideal S50000x128 .f32) (B : FVec Ideal S128x128 .f32)
    (x0 : FVec Ideal S10000x128 .f32) (x1 : FVec Ideal S128x128 .f32) (y : S10000x128.Idx) (I : S50000x128.Idx)
    (hI : (I 1).val = (y 1).val)
    (h0 : ∀ (j : S10000x128.Idx) (i : S50000x128.Idx), (j 0).val = (y 0).val → (i 0).val = (I 0).val →
      (i 1).val = (j 1).val → x0 j = A i)
    (h1 : ∀ j : S128x128.Idx, x1 j = B j) :
    k1_pay1 x0 x1 y = prod A B I := by
  obtain ⟨p, q, rfl⟩ : ∃ (p : Fin 10000) (q : Fin 128), y = ix2 p q := ⟨y 0, y 1, eq_ix2 y⟩
  obtain ⟨r, q', rfl⟩ : ∃ (r : Fin 50000) (q' : Fin 128), I = ix2 r q' := ⟨I 0, I 1, eq_ix2 I⟩
  obtain rfl : q' = q := Fin.ext hI
  exact pay_entry A B x0 x1 p q' r (fun k => h0 (ix2 p k) (ix2 r k) rfl rfl rfl) (fun k => h1 (ix2 k q'))

/-- The printed index maps over the grid: the row blocks of the left operand and of the result move with the point,
    the right operand's one block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts t
  funext y
  show k1_pay1 (iblk1 V c 0 t) (iblk1 V c 1 t) y = whole V c (((cfg1.win 2).blk t).view.emb y)
  refine pay_at (V c main_v47) (V c main_arg4) (iblk1 V c 0 t) (iblk1 V c 1 t) y (((cfg1.win 2).blk t).view.emb y) ?_ ?_ ?_
  · show win1_2.index t (1 : Fin 2) * 128 + 1 * (y 1).val = (y 1).val
    omega
  · intro j i hj hi0 hi1
    have hi0' : (i 0).val = win1_2.index t (0 : Fin 2) * 10000 + 1 * (y 0).val := hi0
    unfold iblk1
    rw [View.read_apply]
    show V c main_v47 (((cfg1.win 0).blk t).view.emb j) = V c main_v47 i
    refine congrArg (V c main_v47) (funext fun a => Fin.ext ?_)
    match a with
    | ⟨0, _⟩ => show win1_0.index t (0 : Fin 2) * 10000 + 1 * (j 0).val = (i 0).val; omega
    | ⟨1, _⟩ => show win1_0.index t (1 : Fin 2) * 128 + 1 * (j 1).val = (i 1).val; omega
  · intro j
    unfold iblk1
    rw [View.read_apply]
    show V c main_arg4 (((cfg1.win 1).blk t).view.emb j) = V c main_arg4 j
    refine congrArg (V c main_arg4) (funext fun a => Fin.ext ?_)
    match a with
    | ⟨0, _⟩ => show win1_1.index t (0 : Fin 2) * 128 + 1 * (j 0).val = (j 0).val; omega
    | ⟨1, _⟩ => show win1_1.index t (1 : Fin 2) * 128 + 1 * (j 1).val = (j 1).val; omega

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v74).slice (win1_2.rect t)).set ↔ _
  rw [View.set_slice_whole, Rect.mem_set_unit]
  exact Iff.rfl

/-- Every index of the result array is in some point's block: row `r` in block `r / 10000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  have ht : (i 0).val / 10000 < cfg1.N := by rw [hN]; omega
  obtain ⟨e0, e1, e2, e3, e4, e5⟩ := idx_facts ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- When the region ends its result array holds the whole product. -/
theorem result_arr (c : Dev nD) : (dat1 V c).arrAt 2 cfg1.N = whole V c :=
  (dat1 V c).arrAt_eq_of_cover 2 (whole V c) (fun t _ => flushed_eq V c t) cover

/-- The left operand's array ends as the region found it. -/
theorem left_arr (c : Dev nD) : (dat1 V c).arrAt 0 cfg1.N = V c main_v47 :=
  ((dat1 V c).arrAt_in 0 rfl _).trans (A_eq1 V c 0)

/-- The right operand's array ends as the region found it. -/
theorem right_arr (c : Dev nD) : (dat1 V c).arrAt 1 cfg1.N = V c main_arg4 :=
  ((dat1 V c).arrAt_in 1 rfl _).trans (A_eq1 V c 1)

end Cert.KernelIdeal.Region1

end
-- ==== Proof.Region2.lean ====
/-
  Region 2: a `50000 × 128` matrix times a `128 × 64` matrix, computed `10000` rows at a time.

  The region's grid has five points. At point `t` the body loads rows `10000 t … 10000 t + 9999` of the left matrix
  `A` and the whole right matrix `B`, narrows both to bfloat16, multiplies them into a block of zeros and stores the
  block; the pipeline writes that block back as rows `10000 t … 10000 t + 9999` of the result array. On the extended
  reals narrowing is the identity, so entry `(p, q)` of the block is `∑ k, A (10000 t + p, k) * B (k, q)`: the entry
  `(10000 t + p, q)` of the product `A · B`. Every row of the result lies in exactly one block (row `r` in block
  `r / 10000`), so when the region ends its result array holds the whole product, and its two input arrays are as it
  found them.
-/
import proofs.«173464_j18107582119956_1_alg».proof.Proof.Gen.KernelIdeal.Frame
import proofs.«173464_j18107582119956_1_alg».proof.Proof.Gen.ReferenceIdeal
import proofs.«173464_j18107582119956_1_alg».proof.Proof.LibNarrowedRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The whole product `A · B`. -/
abbrev prod (A : FVec Ideal S50000x128 .f32) (B : FVec Ideal S128x64 .f32) : FVec Ideal S50000x64 .f32 :=
  Host.dotGeneral Cert.ReferenceIdeal.dot_S50000x128_S128x64_S50000x64_1_0_0_1_n_n none A B

/-- The whole product of the two arrays the region reads. -/
abbrev whole (c : Dev nD) : FVec Ideal S50000x64 .f32 := prod (V c main_v91) (V c main_arg6)

/-- The stored block at `(p, q)` is the product's entry `(r, q)`, when row `p` of the loaded row block is row `r` of
    `A` and column `q` of the loaded matrix is column `q` of `B`. -/
theorem pay_entry (A : FVec Ideal S50000x128 .f32) (B : FVec Ideal S128x64 .f32)
    (x0 : FVec Ideal S10000x128 .f32) (x1 : FVec Ideal S128x64 .f32) (p : Fin 10000) (q : Fin 64) (r : Fin 50000)
    (h0 : ∀ k : Fin 128, x0 (ix2 p k) = A (ix2 r k)) (h1 : ∀ k : Fin 128, x1 (ix2 k q) = B (ix2 k q)) :
    k2_pay1 x0 x1 (ix2 p q) = prod A B (ix2 r q) := by
  unfold k2_pay1
  rw [shapeCast_self]
  exact Cert.LibNarrowedRows.narrowed_rows_entry (M := 50000) (K := 128) (N := 64) (TM := 10000) A B x0 x1
    dot_S10000x128_S128x64_S10000x64_1_0_0_1_n_n rfl Cert.ReferenceIdeal.dot_S50000x128_S128x64_S50000x64_1_0_0_1_n_n rfl bitsLt_bf16_f32 p q r h0 h1

/-- The same at any entry `y` of the block and any index `I` of the product in the same column: the row block need
    only agree with `A` along row `y 0` against row `I 0`, the loaded matrix with `B` everywhere. -/
theorem pay_at (A : FVec Ideal S50000x128 .f32) (B : FVec Ideal S128x64 .f32)
    (x0 : FVec Ideal S10000x128 .f32) (x1 : FVec Ideal S128x64 .f32) (y : S10000x64.Idx) (I : S50000x64.Idx)
    (hI : (I 1).val = (y 1).val)
    (h0 : ∀ (j : S10000x128.Idx) (i : S50000x128.Idx), (j 0).val = (y 0).val → (i 0).val = (I 0).val →
      (i 1).val = (j 1).val → x0 j = A i)
    (h1 : ∀ j : S128x64.Idx, x1 j = B j) :
    k2_pay1 x0 x1 y = prod A B I := by
  obtain ⟨p, q, rfl⟩ : ∃ (p : Fin 10000) (q : Fin 64), y = ix2 p q := ⟨y 0, y 1, eq_ix2 y⟩
  obtain ⟨r, q', rfl⟩ : ∃ (r : Fin 50000) (q' : Fin 64), I = ix2 r q' := ⟨I 0, I 1, eq_ix2 I⟩
  obtain rfl : q' = q := Fin.ext hI
  exact pay_entry A B x0 x1 p q' r (fun k => h0 (ix2 p k) (ix2 r k) rfl rfl rfl) (fun k => h1 (ix2 k q'))

/-- The printed index maps over the grid: the row blocks of the left operand and of the result move with the point,
    the right operand's one block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx_facts t
  funext y
  show k2_pay1 (iblk2 V c 0 t) (iblk2 V c 1 t) y = whole V c (((cfg2.win 2).blk t).view.emb y)
  refine pay_at (V c main_v91) (V c main_arg6) (iblk2 V c 0 t) (iblk2 V c 1 t) y (((cfg2.win 2).blk t).view.emb y) ?_ ?_ ?_
  · show win2_2.index t (1 : Fin 2) * 64 + 1 * (y 1).val = (y 1).val
    omega
  · intro j i hj hi0 hi1
    have hi0' : (i 0).val = win2_2.index t (0 : Fin 2) * 10000 + 1 * (y 0).val := hi0
    unfold iblk2
    rw [View.read_apply]
    show V c main_v91 (((cfg2.win 0).blk t).view.emb j) = V c main_v91 i
    refine congrArg (V c main_v91) (funext fun a => Fin.ext ?_)
    match a with
    | ⟨0, _⟩ => show win2_0.index t (0 : Fin 2) * 10000 + 1 * (j 0).val = (i 0).val; omega
    | ⟨1, _⟩ => show win2_0.index t (1 : Fin 2) * 128 + 1 * (j 1).val = (i 1).val; omega
  · intro j
    unfold iblk2
    rw [View.read_apply]
    show V c main_arg6 (((cfg2.win 1).blk t).view.emb j) = V c main_arg6 j
    refine congrArg (V c main_arg6) (funext fun a => Fin.ext ?_)
    match a with
    | ⟨0, _⟩ => show win2_1.index t (0 : Fin 2) * 128 + 1 * (j 0).val = (j 0).val; omega
    | ⟨1, _⟩ => show win2_1.index t (1 : Fin 2) * 64 + 1 * (j 1).val = (j 1).val; omega

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v118).slice (win2_2.rect t)).set ↔ _
  rw [View.set_slice_whole, Rect.mem_set_unit]
  exact Iff.rfl

/-- Every index of the result array is in some point's block: row `r` in block `r / 10000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  have ht : (i 0).val / 10000 < cfg2.N := by rw [hN]; omega
  obtain ⟨e0, e1, e2, e3, e4, e5⟩ := idx_facts ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-- When the region ends its result array holds the whole product. -/
theorem result_arr (c : Dev nD) : (dat2 V c).arrAt 2 cfg2.N = whole V c :=
  (dat2 V c).arrAt_eq_of_cover 2 (whole V c) (fun t _ => flushed_eq V c t) cover

/-- The left operand's array ends as the region found it. -/
theorem left_arr (c : Dev nD) : (dat2 V c).arrAt 0 cfg2.N = V c main_v91 :=
  ((dat2 V c).arrAt_in 0 rfl _).trans (A_eq2 V c 0)

/-- The right operand's array ends as the region found it. -/
theorem right_arr (c : Dev nD) : (dat2 V c).arrAt 1 cfg2.N = V c main_arg6 :=
  ((dat2 V c).arrAt_in 1 rfl _).trans (A_eq2 V c 1)

end Cert.KernelIdeal.Region2

end
-- ==== Proof.RegionOps.lean ====
/-
  Each kernel region acts on the buffers as one host product.

  When a region ends, its three arrays hold what its pipeline left — the two operands as the region found them, the
  result array at the whole product of the operands (the three region modules) — and every other buffer is untouched.
  The host operation that writes that product into the result buffer changes the contents in exactly this way. So the
  contents at each region's exit are that operation's result on the contents at its entry, and the contents when @main
  returns are the fold `Kfold` of the launch contents.
-/
import proofs.«173464_j18107582119956_1_alg».proof.Proof.Gen.KernelIdeal.Frame
import proofs.«173464_j18107582119956_1_alg».proof.Proof.Fold
import proofs.«173464_j18107582119956_1_alg».proof.Proof.Region0
import proofs.«173464_j18107582119956_1_alg».proof.Proof.Region1
import proofs.«173464_j18107582119956_1_alg».proof.Proof.Region2

noncomputable section

open Idealize.ShloMosaic Idealize.ShloMosaic.TcCoe Idealize.SL.Sem Idealize.ShloMosaic.StableHlo

namespace Cert.KernelIdeal.RegionOps

open Cert.KernelIdeal Cert.KernelIdeal.Gen Cert.KernelIdeal.Fold

variable (m : (ℓ : Loc nD τ sig) → Buf (Elt Ideal) ℓ) (ρ : Dev nD → PrngReg)

/-- The contents at region 0's exit are the product operation's result on the contents at its entry. -/
theorem W4_eq (c : Dev nD) : W4 m ρ c = prodOp0.result (W3 m ρ c) := by
  funext b
  by_cases h : ∃ w, Proc.devRef .tc (Pipeline.arrRef spec0 w) = b
  · obtain ⟨w, rfl⟩ := h
    rw [W4_arr]
    rcases w with ⟨_ | _ | _ | n, hw⟩
    · show (dat0 (V3 m ρ) c).arrAt 0 cfg0.N = prodOp0.result (W3 m ρ c) (Proc.devRef .tc main_arg0)
      rw [Region0.left_arr]
      exact (binary_result_ne _ _ _ _ _ _ _ (W3 m ρ c) (r := main_arg0) (by decide)).symm
    · show (dat0 (V3 m ρ) c).arrAt 1 cfg0.N = prodOp0.result (W3 m ρ c) (Proc.devRef .tc main_arg2)
      rw [Region0.right_arr]
      exact (binary_result_ne _ _ _ _ _ _ _ (W3 m ρ c) (r := main_arg2) (by decide)).symm
    · show (dat0 (V3 m ρ) c).arrAt 2 cfg0.N = prodOp0.result (W3 m ρ c) (Proc.devRef .tc main_v30)
      rw [Region0.result_arr]
      refine Eq.symm ?_
      exact binary_result main_arg0 main_arg2 main_v30 _ _ _ _ (W3 m ρ c)
    · exact absurd hw (by show ¬ (n + 3 < 3); omega)
  · unfold W4 Pipeline.withArrays
    rw [dif_neg h]
    refine (HloOp.result_of_not_mem _ _ ?_).symm
    rw [binary_writes, Finset.mem_singleton]
    exact fun e => h ⟨2, e.symm⟩

/-- The contents at region 1's exit are the product operation's result on the contents at its entry. -/
theorem W10_eq (c : Dev nD) : W10 m ρ c = prodOp1.result (W9 m ρ c) := by
  funext b
  by_cases h : ∃ w, Proc.devRef .tc (Pipeline.arrRef spec1 w) = b
  · obtain ⟨w, rfl⟩ := h
    rw [W10_arr]
    rcases w with ⟨_ | _ | _ | n, hw⟩
    · show (dat1 (V9 m ρ) c).arrAt 0 cfg1.N = prodOp1.result (W9 m ρ c) (Proc.devRef .tc main_v47)
      rw [Region1.left_arr]
      exact (binary_result_ne _ _ _ _ _ _ _ (W9 m ρ c) (r := main_v47) (by decide)).symm
    · show (dat1 (V9 m ρ) c).arrAt 1 cfg1.N = prodOp1.result (W9 m ρ c) (Proc.devRef .tc main_arg4)
      rw [Region1.right_arr]
      exact (binary_result_ne _ _ _ _ _ _ _ (W9 m ρ c) (r := main_arg4) (by decide)).symm
    · show (dat1 (V9 m ρ) c).arrAt 2 cfg1.N = prodOp1.result (W9 m ρ c) (Proc.devRef .tc main_v74)
      rw [Region1.result_arr]
      refine Eq.symm ?_
      exact binary_result main_v47 main_arg4 main_v74 _ _ _ _ (W9 m ρ c)
    · exact absurd hw (by show ¬ (n + 3 < 3); omega)
  · unfold W10 Pipeline.withArrays
    rw [dif_neg h]
    refine (HloOp.result_of_not_mem _ _ ?_).symm
    rw [binary_writes, Finset.mem_singleton]
    exact fun e => h ⟨2, e.symm⟩

/-- The contents at region 2's exit are the product operation's result on the contents at its entry. -/
theorem W16_eq (c : Dev nD) : W16 m ρ c = prodOp2.result (W15 m ρ c) := by
  funext b
  by_cases h : ∃ w, Proc.devRef .tc (Pipeline.arrRef spec2 w) = b
  · obtain ⟨w, rfl⟩ := h
    rw [W16_arr]
    rcases w with ⟨_ | _ | _ | n, hw⟩
    · show (dat2 (V15 m ρ) c).arrAt 0 cfg2.N = prodOp2.result (W15 m ρ c) (Proc.devRef .tc main_v91)
      rw [Region2.left_arr]
      exact (binary_result_ne _ _ _ _ _ _ _ (W15 m ρ c) (r := main_v91) (by decide)).symm
    · show (dat2 (V15 m ρ) c).arrAt 1 cfg2.N = prodOp2.result (W15 m ρ c) (Proc.devRef .tc main_arg6)
      rw [Region2.right_arr]
      exact (binary_result_ne _ _ _ _ _ _ _ (W15 m ρ c) (r := main_arg6) (by decide)).symm
    · show (dat2 (V15 m ρ) c).arrAt 2 cfg2.N = prodOp2.result (W15 m ρ c) (Proc.devRef .tc main_v118)
      rw [Region2.result_arr]
      refine Eq.symm ?_
      exact binary_result main_v91 main_arg6 main_v118 _ _ _ _ (W15 m ρ c)
    · exact absurd hw (by show ¬ (n + 3 < 3); omega)
  · unfold W16 Pipeline.withArrays
    rw [dif_neg h]
    refine (HloOp.result_of_not_mem _ _ ?_).symm
    rw [binary_writes, Finset.mem_singleton]
    exact fun e => h ⟨2, e.symm⟩

/-- The contents when @main returns are the fold of the launch contents. -/
theorem W17_eq (c : Dev nD) : W17 m ρ c = Kfold (W0 m ρ c) := by
  unfold Kfold
  rw [← W4_eq m ρ c, ← W10_eq m ρ c, ← W16_eq m ρ c]

end Cert.KernelIdeal.RegionOps

end
-- ==== Proof.KernelRun.lean ====
/-
  The idealized kernel's run, with its result named.

  @main is seventeen segments: host stretches and three kernel regions. The launch theorem for such a program gives, for
  every weakly fair execution, termination without a fault and a final memory in which every buffer that outlives the
  regions holds the contents folded through the segments from the launch memory. The result buffer is one of those
  buffers, and that fold is `Kfold` of the launch contents: each region leaves what one host product leaves.
-/
import proofs.«173464_j18107582119956_1_alg».proof.Proof.Gen.KernelIdeal.Frame
import proofs.«173464_j18107582119956_1_alg».proof.Proof.RegionOps

set_option maxRecDepth 16384

noncomputable section

namespace Cert.KernelIdeal.ValueRun

open Cert.KernelIdeal Cert.KernelIdeal.Gen Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the idealized kernel's @main terminates, nothing faulting, with the result buffer at
    the fold of the launch contents and the arguments as launched. -/
theorem run : θ_run defs (onTc (τ := τ) (main (F := Ideal))) ⟨m, fun _ => 0, ρ⟩ (fun r => ∀ c : Dev nD,
      r.2.mem ((c.tc : Thread nD τ).loc main_v134) = Kfold (F := Ideal) (W0 m ρ c) (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨(h c _ (mem_uc main_v134 (by decide))).trans (congrFun (RegionOps.W17_eq m ρ c) _),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.ValueRun

end
-- ==== Proof.RefRun.lean ====
/-
  The reference's run.

  The reference's @main is a straight line of 178 host operations, so every weakly fair execution of it terminates
  with each buffer at the fold of the operations' results over the launch contents. No operation writes an argument's
  buffer, so the fold leaves each argument where it was.
-/
import proofs.«173464_j18107582119956_1_alg».proof.Proof.RefOps

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 40000000 in
/-- Every weakly fair execution of the reference's @main terminates with every buffer at the fold of its operations
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 8192 in
set_option maxHeartbeats 4000000 in
/-- No operation writes argument 0. -/
theorem kept0 (V : Valuation τ sig (Elt F)) :
    after (ops (F := F)) V (Proc.devRef .tc main_arg0) = V (Proc.devRef .tc main_arg0) := by
  after_results_simp <;> rfl

set_option maxRecDepth 8192 in
set_option maxHeartbeats 4000000 in
/-- No operation writes argument 1. -/
theorem kept1 (V : Valuation τ sig (Elt F)) :
    after (ops (F := F)) V (Proc.devRef .tc main_arg1) = V (Proc.devRef .tc main_arg1) := by
  after_results_simp <;> rfl

set_option maxRecDepth 8192 in
set_option maxHeartbeats 4000000 in
/-- No operation writes argument 2. -/
theorem kept2 (V : Valuation τ sig (Elt F)) :
    after (ops (F := F)) V (Proc.devRef .tc main_arg2) = V (Proc.devRef .tc main_arg2) := by
  after_results_simp <;> rfl

set_option maxRecDepth 8192 in
set_option maxHeartbeats 4000000 in
/-- No operation writes argument 3. -/
theorem kept3 (V : Valuation τ sig (Elt F)) :
    after (ops (F := F)) V (Proc.devRef .tc main_arg3) = V (Proc.devRef .tc main_arg3) := by
  after_results_simp <;> rfl

set_option maxRecDepth 8192 in
set_option maxHeartbeats 4000000 in
/-- No operation writes argument 4. -/
theorem kept4 (V : Valuation τ sig (Elt F)) :
    after (ops (F := F)) V (Proc.devRef .tc main_arg4) = V (Proc.devRef .tc main_arg4) := by
  after_results_simp <;> rfl

set_option maxRecDepth 8192 in
set_option maxHeartbeats 4000000 in
/-- No operation writes argument 5. -/
theorem kept5 (V : Valuation τ sig (Elt F)) :
    after (ops (F := F)) V (Proc.devRef .tc main_arg5) = V (Proc.devRef .tc main_arg5) := by
  after_results_simp <;> rfl

set_option maxRecDepth 8192 in
set_option maxHeartbeats 4000000 in
/-- No operation writes argument 6. -/
theorem kept6 (V : Valuation τ sig (Elt F)) :
    after (ops (F := F)) V (Proc.devRef .tc main_arg6) = V (Proc.devRef .tc main_arg6) := by
  after_results_simp <;> rfl

set_option maxRecDepth 8192 in
set_option maxHeartbeats 4000000 in
/-- No operation writes argument 7. -/
theorem kept7 (V : Valuation τ sig (Elt F)) :
    after (ops (F := F)) V (Proc.devRef .tc main_arg7) = V (Proc.devRef .tc main_arg7) := by
  after_results_simp <;> rfl

end Cert.ReferenceIdeal.RefRun

end
-- ==== Proof.Stages.lean ====
/-
  Both host folds, cut after each layer.

  Right after a layer's rectified output very little is live: that output, the two rows of the edge list (every layer
  rebuilds its index vectors and edge weights from them), and the arguments no operation has read yet. Both programs
  are cut at those two points — after operation 63 and after operation 122 of the reference's 178 — into three stages
  of about sixty operations, one per layer: the kernel's fold `Kfold` is its three stage folds composed, and the
  reference's fold over the whole list is the fold over its three sublists in turn.
-/
import proofs.«173464_j18107582119956_1_alg».proof.Proof.Fold
import proofs.«173464_j18107582119956_1_alg».proof.Proof.RefOps
import Idealize.ShloMosaic.Lib.Pipeline.Frame

noncomputable section

open Idealize.ShloMosaic Idealize.ShloMosaic.TcCoe Idealize.ShloMosaic.StableHlo

namespace Cert.KernelIdeal.Fold

open Cert.KernelIdeal Cert.KernelIdeal.Gen

variable {F : FTy → Type} [FloatOps F]

/-- The first layer: through its rectified output. -/
def KA (V : Valuation τ sig (Elt F)) : Valuation τ sig (Elt F) :=
  after hostOps1_1 (after hostOps1 (prodOp0.result (after hostOps0_2 (after hostOps0_1 (after hostOps0 V)))))

/-- The second layer: through its rectified output. -/
def KB (V : Valuation τ sig (Elt F)) : Valuation τ sig (Elt F) :=
  after hostOps2_1 (after hostOps2 (prodOp1.result (after hostOps1_4 (after hostOps1_3 (after hostOps1_2 V)))))

/-- The third layer: through the result. -/
def KC (V : Valuation τ sig (Elt F)) : Valuation τ sig (Elt F) :=
  after hostOps3 (prodOp2.result (after hostOps2_4 (after hostOps2_3 (after hostOps2_2 V))))

/-- The kernel's fold is its three layers' folds composed. -/
theorem Kfold_eq (V : Valuation τ sig (Elt F)) : Kfold V = KC (KB (KA V)) := rfl

end Cert.KernelIdeal.Fold

namespace Cert.ReferenceIdeal.Split

open Cert.ReferenceIdeal Cert.ReferenceIdeal.Gen Cert.ReferenceIdeal.ValueP

variable {F : FTy → Type} [FloatOps F]

/-- The reference's first layer: operations 1 to 63. -/
abbrev opsA : List (HloOp τ sig (Elt F)) := (ops (F := F)).take 63
/-- The reference's second layer: operations 64 to 122. -/
abbrev opsB : List (HloOp τ sig (Elt F)) := ((ops (F := F)).drop 63).take 59
/-- The reference's third layer: operations 123 to 178. -/
abbrev opsC : List (HloOp τ sig (Elt F)) := (ops (F := F)).drop 122

/-- The list is its three sublists in a row. -/
theorem ops_split : (ops (F := F)) = opsA ++ (opsB ++ opsC) := by
  show _ = List.take 63 ops ++ (List.take 59 (List.drop 63 ops) ++ List.drop 122 ops)
  rw [show List.drop 122 (ops (F := F)) = List.drop 59 (List.drop 63 ops) from by rw [List.drop_drop],
    List.take_append_drop, List.take_append_drop]

/-- The reference's fold is its three layers' folds in turn. -/
theorem after_split (V : Valuation τ sig (Elt F)) :
    after (ops (F := F)) V = after opsC (after opsB (after opsA V)) := by
  rw [← StableHlo.after_append, ← StableHlo.after_append, ← ops_split]

end Cert.ReferenceIdeal.Split

end
-- ==== Proof.LibNary3.lean ====
/-
  A host operation with THREE operand buffers, read in a host program's run.

  A straight-line host program's run leaves every buffer at the fold of the operations' results over the launch
  contents, and that fold is computed by rewriting each operation's result at its own buffer. For an operation whose
  operands are a FAMILY of buffers (a concatenation of several arrays) the general rule hands the operation's function
  the family `fun k => F (xs k)`, where the buffer `xs k` is no literal under the binder and no further rule applies to
  it. Nor can the contents be handed over inside the operation's function: a concatenation takes its pieces as a list
  together with a proof about that very list, and rewriting does not enter an argument that a later argument's type
  depends on. So for a literal family of three buffers the result is restated here as a three-argument application:
  the function that builds the family from three given contents (a selector, read by the operation at the literal
  positions 0, 1, 2) applied to the three buffers' contents, which stay ordinary arguments that the rewriting reaches.
  Unfolding the application and reading the selector at the literals are definitional steps, done afterwards. The same
  holds one size down: a concatenation of TWO arrays is an operation with two operand buffers whose function takes both
  into such a list, so the two-operand result is stated as a two-argument application as well.
-/
import Idealize.ShloMosaic.Lib.StableHlo.Run

noncomputable section

namespace Cert.LibNary3

open Idealize.ShloMosaic Idealize.ShloMosaic.StableHlo

/-- The family over `Fin 3` with the three given members. -/
abbrev sel3 {α : Fin 3 → Type} (a0 : α 0) (a1 : α 1) (a2 : α 2) : (k : Fin 3) → α k
  | ⟨0, _⟩ => a0
  | ⟨1, _⟩ => a1
  | ⟨2, _⟩ => a2

section
variable {α : Fin 3 → Type} (a0 : α 0) (a1 : α 1) (a2 : α 2)
theorem sel3_0 : sel3 a0 a1 a2 0 = a0 := rfl
theorem sel3_1 : sel3 a0 a1 a2 1 = a1 := rfl
theorem sel3_2 : sel3 a0 a1 a2 2 = a2 := rfl
end

/-- A function of two arguments applied to them. -/
def app2 {A0 A1 B : Type} (g : A0 → A1 → B) (a0 : A0) (a1 : A1) : B := g a0 a1

/-- A function of three arguments applied to them: the arguments stay in sight of a rewriting pass that the function's
    body may hide them from. -/
def app3 {A0 A1 A2 B : Type} (g : A0 → A1 → A2 → B) (a0 : A0) (a1 : A1) (a2 : A2) : B := g a0 a1 a2

variable {τ : Topo} {sig : RefSig} {Val : EltTy → Type}
variable {x0 x1 x2 y : Ref sig .tc}

/-- The result of a three-operand operation at its own result buffer: its function of the three operands' contents,
    each read at its own buffer. -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = app3 (fun (a0 : x0.ty.Contents Val) (a1 : x1.ty.Contents Val) (a2 : x2.ty.Contents Val) =>
          f (sel3 (α := fun k => ((![x0, x1, x2] : Fin 3 → Ref sig .tc) k).ty.Contents Val) a0 a1 a2))
          (F (Proc.devRef .tc x0)) (F (Proc.devRef .tc x1)) (F (Proc.devRef .tc x2)) := by
  rw [nary_result]; unfold app3; congr 1; funext k; fin_cases k <;> rfl

/-- The same, stated for `simp`: the result buffer is not part of the pattern's key. -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = app3 (fun (a0 : x0.ty.Contents Val) (a1 : x1.ty.Contents Val) (a2 : x2.ty.Contents Val) =>
          f (sel3 (α := fun k => ((![x0, x1, x2] : Fin 3 → Ref sig .tc) k).ty.Contents Val) a0 a1 a2))
          (F (Proc.devRef .tc x0)) (F (Proc.devRef .tc x1)) (F (Proc.devRef .tc x2)) :=
  nary3_result f hxs hy F

/-- The result of a two-operand operation at its own result buffer, stated for `simp` as a two-argument application, so
    that the two operands' contents are evaluated before the operation's function takes them in. -/
theorem binary_result2' {a b : Ref sig .tc}
    (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- A called function's operations read and write their buffers through typed references, casting contents along the
    reference's type equation; a cast there and back is the identity. -/
theorem ofBuf_toBuf {T : BufTy} (x : StableHlo.TRef sig T) (v : T.Contents Val) : x.ofBuf (x.toBuf v) = v := by
  obtain ⟨r, rfl, _, _⟩ := x; rfl

/-- The fold of a literal operation list at a buffer, in one `simp` pass, for a list with a three-operand operation:
    the library's pass with the three-operand form in place of the general family form; then, definitionally, the
    applications unfolded, the selector read at its literal positions, and the casts of a called function's typed references
    there and back removed. -/
macro "after_results_simp3" : tactic =>
  `(tactic| (simp (disch := decide) only [after_cons, after_nil,
      nullary_result', unary_result', Cert.LibNary3.binary_result2', ternary_result', quaternary_result', reshape_result', nary4_result',
      Cert.LibNary3.nary3_result', unaryIndexed_result', binaryIndexed_result',
      nullary_result_ne', unary_result_ne', binary_result_ne', ternary_result_ne', quaternary_result_ne', reshape_result_ne',
      nary_result_ne', unaryIndexed_result_ne', binaryIndexed_result_ne']; try dsimp only [Cert.LibNary3.app2, Cert.LibNary3.app3, Cert.LibNary3.sel3_0, Cert.LibNary3.sel3_1, Cert.LibNary3.sel3_2]; try simp only [Cert.LibNary3.ofBuf_toBuf]))

end Cert.LibNary3

end
-- ==== Proof.LibEvalFolds.lean ====
/-
  Evaluating a fold of host operations at a buffer, in one rewriting pass.

  The fold of a literal list of host operations over some contents, read at one buffer, is computed by rewriting each
  operation's result at its own buffer to its function of the operands' contents, and at any other buffer to what was
  there before. A two-operand operation's result is kept as an application of its function to the two operands'
  contents, so that the operands are evaluated even when the function would put them where rewriting cannot go (a
  concatenation's list of pieces). Nothing is unfolded afterwards: two folds evaluated this way have the same shape
  whenever their operations correspond, and are compared as they stand.
-/
import proofs.«173464_j18107582119956_1_alg».proof.Proof.LibNary3

namespace Cert.LibEvalFolds

open Idealize.ShloMosaic Idealize.ShloMosaic.StableHlo

/-- One pass: every operation's result read at its own buffer or passed over at another. -/
macro "eval_folds" : tactic =>
  `(tactic| simp (disch := decide) only [after_cons, after_nil,
      nullary_result', unary_result', Cert.LibNary3.binary_result2', ternary_result', quaternary_result', reshape_result', nary4_result',
      Cert.LibNary3.nary3_result', unaryIndexed_result', binaryIndexed_result',
      nullary_result_ne', unary_result_ne', binary_result_ne', ternary_result_ne', quaternary_result_ne', reshape_result_ne',
      nary_result_ne', unaryIndexed_result_ne', binaryIndexed_result_ne'])

end Cert.LibEvalFolds
-- ==== Proof.StageA.lean ====
/-
  The first layer, in both programs, from contents agreeing on the arguments.

  The layer's output `relu (scatter-add of the weighted rows of x · W1 + b1)` is evaluated operation by operation in the
  kernel's fold (its region as the host product) and in the reference's first 63 operations: the same term of `x`, the
  edge list, `W1` and `b1`. The two rows of the edge list come out of both the same way, and the arguments that no
  operation of the layer writes pass through.
-/
import proofs.«173464_j18107582119956_1_alg».proof.Proof.Stages
import proofs.«173464_j18107582119956_1_alg».proof.Proof.LibEvalFolds
import Idealize.ShloMosaic.PureOps.Ideal

noncomputable section

namespace Cert.StageA

open Idealize.ShloMosaic Idealize.ShloMosaic.TcCoe Idealize.ShloMosaic.StableHlo
open Cert.KernelIdeal.Fold Cert.ReferenceIdeal.Split Cert.LibEvalFolds

variable (Vk : Valuation Cert.KernelIdeal.τ Cert.KernelIdeal.sig (Elt Ideal)) (Vr : Valuation Cert.ReferenceIdeal.τ Cert.ReferenceIdeal.sig (Elt Ideal))

set_option maxRecDepth 16384 in
set_option maxHeartbeats 100000000 in
/-- The first layer's rectified output. -/
theorem out (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) (h2 : Vk (Proc.devRef .tc Cert.KernelIdeal.main_arg2) = Vr (Proc.devRef .tc Cert.ReferenceIdeal.main_arg2)) (h3 : Vk (Proc.devRef .tc Cert.KernelIdeal.main_arg3) = Vr (Proc.devRef .tc Cert.ReferenceIdeal.main_arg3)) :
    KA (F := Ideal) Vk (Proc.devRef .tc Cert.KernelIdeal.main_v47) = after (opsA (F := Ideal)) Vr (Proc.devRef .tc Cert.ReferenceIdeal.main_v47) := by
  unfold KA
  simp only [opsA, Cert.ReferenceIdeal.ValueP.ops, List.take_succ_cons, List.take_zero]
  eval_folds
  simp only [h0, h1, h2, h3]
  rfl

set_option maxRecDepth 16384 in
set_option maxHeartbeats 100000000 in
/-- The edges' sources: row 0 of the edge list. -/
theorem row (h1 : Vk (Proc.devRef .tc Cert.KernelIdeal.main_arg1) = Vr (Proc.devRef .tc Cert.ReferenceIdeal.main_arg1)) :
    KA (F := Ideal) Vk (Proc.devRef .tc Cert.KernelIdeal.main_v1) = after (opsA (F := Ideal)) Vr (Proc.devRef .tc Cert.ReferenceIdeal.main_v1) := by
  unfold KA
  simp only [opsA, Cert.ReferenceIdeal.ValueP.ops, List.take_succ_cons, List.take_zero]
  eval_folds
  simp only [h1]
  rfl

set_option maxRecDepth 16384 in
set_option maxHeartbeats 100000000 in
/-- The edges' destinations: row 1 of the edge list. -/
theorem col (h1 : Vk (Proc.devRef .tc Cert.KernelIdeal.main_arg1) = Vr (Proc.devRef .tc Cert.ReferenceIdeal.main_arg1)) :
    KA (F := Ideal) Vk (Proc.devRef .tc Cert.KernelIdeal.main_v3) = after (opsA (F := Ideal)) Vr (Proc.devRef .tc Cert.ReferenceIdeal.main_v3) := by
  unfold KA
  simp only [opsA, Cert.ReferenceIdeal.ValueP.ops, List.take_succ_cons, List.take_zero]
  eval_folds
  simp only [h1]
  rfl

set_option maxRecDepth 16384 in
set_option maxHeartbeats 100000000 in
/-- The second weight matrix passes through. -/
theorem arg4 (h : Vk (Proc.devRef .tc Cert.KernelIdeal.main_arg4) = Vr (Proc.devRef .tc Cert.ReferenceIdeal.main_arg4)) :
    KA (F := Ideal) Vk (Proc.devRef .tc Cert.KernelIdeal.main_arg4) = after (opsA (F := Ideal)) Vr (Proc.devRef .tc Cert.ReferenceIdeal.main_arg4) := by
  unfold KA
  simp only [opsA, Cert.ReferenceIdeal.ValueP.ops, List.take_succ_cons, List.take_zero]
  eval_folds
  exact h

set_option maxRecDepth 16384 in
set_option maxHeartbeats 100000000 in
/-- The second bias passes through. -/
theorem arg5 (h : Vk (Proc.devRef .tc Cert.KernelIdeal.main_arg5) = Vr (Proc.devRef .tc Cert.ReferenceIdeal.main_arg5)) :
    KA (F := Ideal) Vk (Proc.devRef .tc Cert.KernelIdeal.main_arg5) = after (opsA (F := Ideal)) Vr (Proc.devRef .tc Cert.ReferenceIdeal.main_arg5) := by
  unfold KA
  simp only [opsA, Cert.ReferenceIdeal.ValueP.ops, List.take_succ_cons, List.take_zero]
  eval_folds
  exact h

set_option maxRecDepth 16384 in
set_option maxHeartbeats 100000000 in
/-- The third weight matrix passes through. -/
theorem arg6 (h : Vk (Proc.devRef .tc Cert.KernelIdeal.main_arg6) = Vr (Proc.devRef .tc Cert.ReferenceIdeal.main_arg6)) :
    KA (F := Ideal) Vk (Proc.devRef .tc Cert.KernelIdeal.main_arg6) = after (opsA (F := Ideal)) Vr (Proc.devRef .tc Cert.ReferenceIdeal.main_arg6) := by
  unfold KA
  simp only [opsA, Cert.ReferenceIdeal.ValueP.ops, List.take_succ_cons, List.take_zero]
  eval_folds
  exact h

set_option maxRecDepth 16384 in
set_option maxHeartbeats 100000000 in
/-- The third bias passes through. -/
theorem arg7 (h : Vk (Proc.devRef .tc Cert.KernelIdeal.main_arg7) = Vr (Proc.devRef .tc Cert.ReferenceIdeal.main_arg7)) :
    KA (F := Ideal) Vk (Proc.devRef .tc Cert.KernelIdeal.main_arg7) = after (opsA (F := Ideal)) Vr (Proc.devRef .tc Cert.ReferenceIdeal.main_arg7) := by
  unfold KA
  simp only [opsA, Cert.ReferenceIdeal.ValueP.ops, List.take_succ_cons, List.take_zero]
  eval_folds
  exact h

end Cert.StageA

end
-- ==== Proof.StageB.lean ====
/-
  The second layer, in both programs, from contents agreeing on the first layer's output, the two rows of the edge
  list, and the layer's weight matrix and bias.

  The layer rebuilds the self-loops, the degrees, their inverse square roots and the edge weights from the two rows, and
  applies them to the rows of `h1 · W2`: the same term on both sides. The two rows and the third layer's arguments pass
  through.
-/
import proofs.«173464_j18107582119956_1_alg».proof.Proof.Stages
import proofs.«173464_j18107582119956_1_alg».proof.Proof.LibEvalFolds
import Idealize.ShloMosaic.PureOps.Ideal

noncomputable section

namespace Cert.StageB

open Idealize.ShloMosaic Idealize.ShloMosaic.TcCoe Idealize.ShloMosaic.StableHlo
open Cert.KernelIdeal.Fold Cert.ReferenceIdeal.Split Cert.LibEvalFolds

variable (Vk : Valuation Cert.KernelIdeal.τ Cert.KernelIdeal.sig (Elt Ideal)) (Vr : Valuation Cert.ReferenceIdeal.τ Cert.ReferenceIdeal.sig (Elt Ideal))

set_option maxRecDepth 16384 in
set_option maxHeartbeats 100000000 in
/-- The second layer's rectified output. -/
theorem out (hh : Vk (Proc.devRef .tc Cert.KernelIdeal.main_v47) = Vr (Proc.devRef .tc Cert.ReferenceIdeal.main_v47)) (hr : Vk (Proc.devRef .tc Cert.KernelIdeal.main_v1) = Vr (Proc.devRef .tc Cert.ReferenceIdeal.main_v1)) (hc : Vk (Proc.devRef .tc Cert.KernelIdeal.main_v3) = Vr (Proc.devRef .tc Cert.ReferenceIdeal.main_v3)) (h4 : Vk (Proc.devRef .tc Cert.KernelIdeal.main_arg4) = Vr (Proc.devRef .tc Cert.ReferenceIdeal.main_arg4)) (h5 : Vk (Proc.devRef .tc Cert.KernelIdeal.main_arg5) = Vr (Proc.devRef .tc Cert.ReferenceIdeal.main_arg5)) :
    KB (F := Ideal) Vk (Proc.devRef .tc Cert.KernelIdeal.main_v91) = after (opsB (F := Ideal)) Vr (Proc.devRef .tc Cert.ReferenceIdeal.main_v91) := by
  unfold KB
  simp only [opsB, Cert.ReferenceIdeal.ValueP.ops, List.drop_succ_cons, List.drop_zero, List.take_succ_cons, List.take_zero]
  eval_folds
  simp only [hh, hr, hc, h4, h5]
  rfl

set_option maxRecDepth 16384 in
set_option maxHeartbeats 100000000 in
/-- The edges' sources pass through. -/
theorem row (h : Vk (Proc.devRef .tc Cert.KernelIdeal.main_v1) = Vr (Proc.devRef .tc Cert.ReferenceIdeal.main_v1)) :
    KB (F := Ideal) Vk (Proc.devRef .tc Cert.KernelIdeal.main_v1) = after (opsB (F := Ideal)) Vr (Proc.devRef .tc Cert.ReferenceIdeal.main_v1) := by
  unfold KB
  simp only [opsB, Cert.ReferenceIdeal.ValueP.ops, List.drop_succ_cons, List.drop_zero, List.take_succ_cons, List.take_zero]
  eval_folds
  exact h

set_option maxRecDepth 16384 in
set_option maxHeartbeats 100000000 in
/-- The edges' destinations pass through. -/
theorem col (h : Vk (Proc.devRef .tc Cert.KernelIdeal.main_v3) = Vr (Proc.devRef .tc Cert.ReferenceIdeal.main_v3)) :
    KB (F := Ideal) Vk (Proc.devRef .tc Cert.KernelIdeal.main_v3) = after (opsB (F := Ideal)) Vr (Proc.devRef .tc Cert.ReferenceIdeal.main_v3) := by
  unfold KB
  simp only [opsB, Cert.ReferenceIdeal.ValueP.ops, List.drop_succ_cons, List.drop_zero, List.take_succ_cons, List.take_zero]
  eval_folds
  exact h

set_option maxRecDepth 16384 in
set_option maxHeartbeats 100000000 in
/-- The third weight matrix passes through. -/
theorem arg6 (h : Vk (Proc.devRef .tc Cert.KernelIdeal.main_arg6) = Vr (Proc.devRef .tc Cert.ReferenceIdeal.main_arg6)) :
    KB (F := Ideal) Vk (Proc.devRef .tc Cert.KernelIdeal.main_arg6) = after (opsB (F := Ideal)) Vr (Proc.devRef .tc Cert.ReferenceIdeal.main_arg6) := by
  unfold KB
  simp only [opsB, Cert.ReferenceIdeal.ValueP.ops, List.drop_succ_cons, List.drop_zero, List.take_succ_cons, List.take_zero]
  eval_folds
  exact h

set_option maxRecDepth 16384 in
set_option maxHeartbeats 100000000 in
/-- The third bias passes through. -/
theorem arg7 (h : Vk (Proc.devRef .tc Cert.KernelIdeal.main_arg7) = Vr (Proc.devRef .tc Cert.ReferenceIdeal.main_arg7)) :
    KB (F := Ideal) Vk (Proc.devRef .tc Cert.KernelIdeal.main_arg7) = after (opsB (F := Ideal)) Vr (Proc.devRef .tc Cert.ReferenceIdeal.main_arg7) := by
  unfold KB
  simp only [opsB, Cert.ReferenceIdeal.ValueP.ops, List.drop_succ_cons, List.drop_zero, List.take_succ_cons, List.take_zero]
  eval_folds
  exact h

end Cert.StageB

end
-- ==== Proof.StageC.lean ====
/-
  The third layer, in both programs, from contents agreeing on the second layer's output, the two rows of the edge
  list, and the layer's weight matrix and bias: the result `scatter-add of the weighted rows of h2 · W3, plus b3` is
  the same term on both sides.
-/
import proofs.«173464_j18107582119956_1_alg».proof.Proof.Stages
import proofs.«173464_j18107582119956_1_alg».proof.Proof.LibEvalFolds
import Idealize.ShloMosaic.PureOps.Ideal

noncomputable section

namespace Cert.StageC

open Idealize.ShloMosaic Idealize.ShloMosaic.TcCoe Idealize.ShloMosaic.StableHlo
open Cert.KernelIdeal.Fold Cert.ReferenceIdeal.Split Cert.LibEvalFolds

variable (Vk : Valuation Cert.KernelIdeal.τ Cert.KernelIdeal.sig (Elt Ideal)) (Vr : Valuation Cert.ReferenceIdeal.τ Cert.ReferenceIdeal.sig (Elt Ideal))

set_option maxRecDepth 16384 in
set_option maxHeartbeats 100000000 in
/-- The result. -/
theorem out (hh : Vk (Proc.devRef .tc Cert.KernelIdeal.main_v91) = Vr (Proc.devRef .tc Cert.ReferenceIdeal.main_v91)) (hr : Vk (Proc.devRef .tc Cert.KernelIdeal.main_v1) = Vr (Proc.devRef .tc Cert.ReferenceIdeal.main_v1)) (hc : Vk (Proc.devRef .tc Cert.KernelIdeal.main_v3) = Vr (Proc.devRef .tc Cert.ReferenceIdeal.main_v3)) (h6 : Vk (Proc.devRef .tc Cert.KernelIdeal.main_arg6) = Vr (Proc.devRef .tc Cert.ReferenceIdeal.main_arg6)) (h7 : Vk (Proc.devRef .tc Cert.KernelIdeal.main_arg7) = Vr (Proc.devRef .tc Cert.ReferenceIdeal.main_arg7)) :
    KC (F := Ideal) Vk (Proc.devRef .tc Cert.KernelIdeal.main_v134) = after (opsC (F := Ideal)) Vr (Proc.devRef .tc Cert.ReferenceIdeal.main_v134) := by
  unfold KC
  simp only [opsC, Cert.ReferenceIdeal.ValueP.ops, List.drop_succ_cons, List.drop_zero]
  eval_folds
  simp only [hh, hr, hc, h6, h7]
  rfl

end Cert.StageC

end
-- ==== Proof.Bridge.lean ====
/-
  The two host programs compute one function of the arguments.

  With each kernel region replaced by the product it computes, the idealized kernel's @main and the reference's @main
  are the same straight line of host operations: the same slices of the edge list, the same self-loops appended, the
  same degrees, inverse square roots and edge weights, and in each of the three layers the same gather of the
  product's rows, the same scaling, the same scatter-add, bias and rectifier. Layer by layer (Proof/StageA–C), contents
  that agree on what a layer reads are taken to contents that agree on what the next layer reads; so from contents
  agreeing on the eight arguments the two folds leave the same array in the result buffer.
-/
import proofs.«173464_j18107582119956_1_alg».proof.Proof.StageA
import proofs.«173464_j18107582119956_1_alg».proof.Proof.StageB
import proofs.«173464_j18107582119956_1_alg».proof.Proof.StageC

noncomputable section

namespace Cert.Bridge

open Idealize.ShloMosaic Idealize.ShloMosaic.TcCoe Idealize.ShloMosaic.StableHlo
open Cert.KernelIdeal.Fold Cert.ReferenceIdeal.Split

/-- From contents agreeing on the eight arguments, the kernel's fold and the reference's fold agree on the result. -/
theorem result_eq (Vk : Valuation Cert.KernelIdeal.τ Cert.KernelIdeal.sig (Elt Ideal))
    (Vr : Valuation Cert.ReferenceIdeal.τ Cert.ReferenceIdeal.sig (Elt Ideal))
    (h0 : Vk (Proc.devRef .tc Cert.KernelIdeal.main_arg0) = Vr (Proc.devRef .tc Cert.ReferenceIdeal.main_arg0))
    (h1 : Vk (Proc.devRef .tc Cert.KernelIdeal.main_arg1) = Vr (Proc.devRef .tc Cert.ReferenceIdeal.main_arg1))
    (h2 : Vk (Proc.devRef .tc Cert.KernelIdeal.main_arg2) = Vr (Proc.devRef .tc Cert.ReferenceIdeal.main_arg2))
    (h3 : Vk (Proc.devRef .tc Cert.KernelIdeal.main_arg3) = Vr (Proc.devRef .tc Cert.ReferenceIdeal.main_arg3))
    (h4 : Vk (Proc.devRef .tc Cert.KernelIdeal.main_arg4) = Vr (Proc.devRef .tc Cert.ReferenceIdeal.main_arg4))
    (h5 : Vk (Proc.devRef .tc Cert.KernelIdeal.main_arg5) = Vr (Proc.devRef .tc Cert.ReferenceIdeal.main_arg5))
    (h6 : Vk (Proc.devRef .tc Cert.KernelIdeal.main_arg6) = Vr (Proc.devRef .tc Cert.ReferenceIdeal.main_arg6))
    (h7 : Vk (Proc.devRef .tc Cert.KernelIdeal.main_arg7) = Vr (Proc.devRef .tc Cert.ReferenceIdeal.main_arg7)) :
    Kfold (F := Ideal) Vk (Proc.devRef .tc Cert.KernelIdeal.main_v134)
      = after (Cert.ReferenceIdeal.ValueP.ops (F := Ideal)) Vr (Proc.devRef .tc Cert.ReferenceIdeal.main_v134) := by
  rw [Kfold_eq, after_split]
  exact Cert.StageC.out (KB (KA Vk)) (after opsB (after opsA Vr))
    (Cert.StageB.out (KA Vk) (after opsA Vr) (Cert.StageA.out Vk Vr h0 h1 h2 h3) (Cert.StageA.row Vk Vr h1)
      (Cert.StageA.col Vk Vr h1) (Cert.StageA.arg4 Vk Vr h4) (Cert.StageA.arg5 Vk Vr h5))
    (Cert.StageB.row (KA Vk) (after opsA Vr) (Cert.StageA.row Vk Vr h1))
    (Cert.StageB.col (KA Vk) (after opsA Vr) (Cert.StageA.col Vk Vr h1))
    (Cert.StageB.arg6 (KA Vk) (after opsA Vr) (Cert.StageA.arg6 Vk Vr h6))
    (Cert.StageB.arg7 (KA Vk) (after opsA Vr) (Cert.StageA.arg7 Vk Vr h7))

end Cert.Bridge

end
-- ==== Proof.lean ====
/-
  A three-layer graph convolution: the kernel against its reference, over the extended reals.

  Both programs compute, for node features `x` (50000 × 128), an edge list (2 × 800000) and three weight matrices
  with biases, three graph-convolution layers: append a self-loop per node to the edge list; count each node's in-degree
  `deg` by a scatter-add of ones; take `dinv = deg > 0 ? rsqrt deg : 0`; weight edge `e` by `dinv[src e] * dinv[dst e]`;
  multiply the layer's input by its weight matrix; gather the product's rows at the edges' sources, scale each by the
  edge's weight, scatter-add them at the edges' destinations, add the bias; and between layers clamp below at zero.

  The two programs are the same text except for the matrix products: the reference takes each as one host product of
  the whole `50000 × 128` matrix, the kernel computes it in a kernel region, `10000` rows at a time, from operands
  narrowed to bfloat16 and accumulated into zeros. On the extended reals narrowing is the identity and each entry of
  either product is the same finite sum `∑ k, A (r, k) * W (k, q)`, so each region leaves in its result buffer exactly
  what the host product leaves (Proof/Region0–2, Proof/RegionOps). Replacing the regions by those products turns the
  kernel's @main into the reference's line of host operations, and evaluating both lines buffer by buffer gives one
  term of the arguments (Proof/Bridge). No entry is asked to be finite: nothing is distributed, cancelled or reordered,
  so the precondition is not used beyond what the frames ask.

  The idealization rewrote no operation of the kernel, so `preserves` has nothing to state. The kernel's two frames are
  the generated ones; the reference's frame is its run with the result dropped.
-/
import proofs.«173464_j18107582119956_1_alg».proof.Defs
import proofs.«173464_j18107582119956_1_alg».proof.Proof.Gen.Kernel
import proofs.«173464_j18107582119956_1_alg».proof.Proof.Gen.Kernel.Skeleton
import proofs.«173464_j18107582119956_1_alg».proof.Proof.Gen.Kernel.Launch
import proofs.«173464_j18107582119956_1_alg».proof.Proof.Gen.Kernel.Points
import proofs.«173464_j18107582119956_1_alg».proof.Proof.Gen.Kernel.Frame
import proofs.«173464_j18107582119956_1_alg».proof.Proof.Gen.KernelIdeal
import proofs.«173464_j18107582119956_1_alg».proof.Proof.Gen.KernelIdeal.Skeleton
import proofs.«173464_j18107582119956_1_alg».proof.Proof.Gen.KernelIdeal.Launch
import proofs.«173464_j18107582119956_1_alg».proof.Proof.Gen.KernelIdeal.Points
import proofs.«173464_j18107582119956_1_alg».proof.Proof.Gen.KernelIdeal.Frame
import proofs.«173464_j18107582119956_1_alg».proof.Proof.Gen.ReferenceIdeal
import proofs.«173464_j18107582119956_1_alg».proof.Proof.Gen.Pre_finite_inputs
import proofs.«173464_j18107582119956_1_alg».proof.Proof.KernelRun
import proofs.«173464_j18107582119956_1_alg».proof.Proof.RefRun
import proofs.«173464_j18107582119956_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs and leaves its arguments unchanged. -/
theorem frame_kernel : Cert.frame_Kernel := fun m ρ _ => Cert.Kernel.Gen.frame m ρ

/-- The idealized kernel runs and leaves its arguments unchanged. -/
theorem frame_ideal : Cert.frame_KernelIdeal := fun m ρ _ => Cert.KernelIdeal.Gen.frame m ρ

/-- The reference runs and leaves its arguments unchanged: no host operation writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefRun.kept0 _),
     (h c Cert.ReferenceIdeal.main_arg1).trans (Cert.ReferenceIdeal.RefRun.kept1 _),
     (h c Cert.ReferenceIdeal.main_arg2).trans (Cert.ReferenceIdeal.RefRun.kept2 _),
     (h c Cert.ReferenceIdeal.main_arg3).trans (Cert.ReferenceIdeal.RefRun.kept3 _),
     (h c Cert.ReferenceIdeal.main_arg4).trans (Cert.ReferenceIdeal.RefRun.kept4 _),
     (h c Cert.ReferenceIdeal.main_arg5).trans (Cert.ReferenceIdeal.RefRun.kept5 _),
     (h c Cert.ReferenceIdeal.main_arg6).trans (Cert.ReferenceIdeal.RefRun.kept6 _),
     (h c Cert.ReferenceIdeal.main_arg7).trans (Cert.ReferenceIdeal.RefRun.kept7 _)⟩)
    (Cert.ReferenceIdeal.RefRun.run (F := Ideal) m ρ)

/-- The idealization rewrote nothing. -/
theorem preserves : Cert.preserves_Kernel_KernelIdeal := trivial

/-- From memories agreeing on the arguments both idealized programs run, and end with the same result: the kernel's
    fold with each region as one product, and the reference's fold, are one function of the arguments. -/
theorem algebraic : Cert.algebraic_KernelIdeal_ReferenceIdeal := by
  intro m ρ m' ρ' _ hagree
  refine ⟨fun c => Cert.KernelIdeal.Fold.Kfold (F := Ideal) (Cert.KernelIdeal.Gen.W0 m ρ c)
      (Proc.devRef .tc Cert.KernelIdeal.main_v134), Cert.KernelIdeal.ValueRun.run m ρ, ?_⟩
  refine (θ_run Cert.ReferenceIdeal.defs _ _).mono (fun _ h c =>
    ⟨(h c Cert.ReferenceIdeal.main_v134).trans ?_,
     (h c Cert.ReferenceIdeal.main_arg0).trans (Cert.ReferenceIdeal.RefRun.kept0 _),
     (h c Cert.ReferenceIdeal.main_arg1).trans (Cert.ReferenceIdeal.RefRun.kept1 _),
     (h c Cert.ReferenceIdeal.main_arg2).trans (Cert.ReferenceIdeal.RefRun.kept2 _),
     (h c Cert.ReferenceIdeal.main_arg3).trans (Cert.ReferenceIdeal.RefRun.kept3 _),
     (h c Cert.ReferenceIdeal.main_arg4).trans (Cert.ReferenceIdeal.RefRun.kept4 _),
     (h c Cert.ReferenceIdeal.main_arg5).trans (Cert.ReferenceIdeal.RefRun.kept5 _),
     (h c Cert.ReferenceIdeal.main_arg6).trans (Cert.ReferenceIdeal.RefRun.kept6 _),
     (h c Cert.ReferenceIdeal.main_arg7).trans (Cert.ReferenceIdeal.RefRun.kept7 _)⟩)
    (Cert.ReferenceIdeal.RefRun.run (F := Ideal) m' ρ')
  obtain ⟨a0, a1, a2, a3, a4, a5, a6, a7⟩ := hagree c
  exact (Cert.Bridge.result_eq (Cert.KernelIdeal.Gen.W0 m ρ c) (launchContents m' c)
    a0.symm a1.symm a2.symm a3.symm a4.symm a5.symm a6.symm a7.symm).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
